-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S2048x2048 .f32) (main_arg3 : FVec F S2048x2048 .f32) (main_arg4 : FVec F S2048x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x1024 : Shape := ⟨2, ![4096, 1024]⟩
abbrev S2048x2048 : Shape := ⟨2, ![2048, 2048]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S2048x2048, .bf16⟩
  | .hbm, ⟨10, _⟩ => ⟨S2048x2048, .bf16⟩
  | .hbm, ⟨11, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x2048, .bf16⟩
  | .local _ .vmem, ⟨5, _⟩ => ⟨S1024x2048, .bf16⟩
  | .local _ .vmem, ⟨6, _⟩ => ⟨S2048x2048, .bf16⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2048x2048_S1024x2048_0_0 : S2048x2048.Slices ![0, 0] S1024x2048
  bitsLt_bf16_f32 : FTy.bits .bf16 < FTy.bits .f32
  slices_S2048x2048_S1024x2048_1024_0 : S2048x2048.Slices ![1024, 0] S1024x2048
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S4096x1024, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x1024, .f32⟩
  | .hbm, ⟨17, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  slices_S4096x2048_S4096x1024_0_0 : S4096x2048.Slices ![0, 0] S4096x1024
  slices_S4096x2048_S4096x1024_0_1024 : S4096x2048.Slices ![0, 1024] S4096x1024
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.RowChain.lean ====
/-
  The value both programs compute, written once and one output row at a time.

  An output entry (r, j) depends on row r of the two activation arrays only. Write a0, a1 for that row of x0 and x1
  (1024 entries each), wa and wb for the upper and the lower 1024 rows of the first weight, w1 and w2 for the other
  two weights. The first edge gives, at column j,

      first j = (sum over k < 1024 of a0 k * wa k j) + (sum over k < 1024 of a1 k * wb k j),

  and each later edge multiplies the row it is given by a square weight,

      next z w j = sum over k < 2048 of z k * w k j.

  The result row is next (next first w1) w2. The kernel computes exactly this on each block of 256 rows; the
  reference joins a0 and a1 into one row of 2048 entries and contracts it against the whole first weight, and between
  edges cuts each result row into its two halves and joins them again, which changes nothing. The only law that joins
  the two sides is that a sum over 2048 terms is the sum of its first 1024 terms plus the sum of its last 1024: it
  holds in every additive commutative monoid, so on the extended reals it needs no finiteness of any entry.
-/
import Idealize.ShloMosaic.PureOps.Ideal
import Idealize.ShloMosaic.Lib.ValueIdx
import Mathlib.Algebra.BigOperators.Fin

noncomputable section

open scoped BigOperators
open Idealize.ShloMosaic Idealize.ShloMosaic.ValueIdx

namespace Cert.Chain

/-- Column `k` of the upper half of a 2048-long axis. -/
abbrev lo (k : Fin 1024) : Fin 2048 := ⟨k.val, by have := k.isLt; omega⟩
/-- Column `k` of the lower half: 1024 further on. -/
abbrev hi (k : Fin 1024) : Fin 2048 := ⟨1024 + k.val, by have := k.isLt; omega⟩

/-- A sum over 2048 terms is the sum of its first 1024 terms plus the sum of its last 1024. Only the monoid laws of
    addition are used, so this holds of extended reals whatever infinities the terms are. -/
theorem sum_halves {M : Type*} [AddCommMonoid M] (f : Fin 2048 → M) :
    ∑ k : Fin 2048, f k = ∑ k : Fin 1024, f (lo k) + ∑ k : Fin 1024, f (hi k) :=
  Fin.sum_univ_add (a := 1024) (b := 1024) f

/-- The first edge at column `j`: one row of each activation against the two halves of the first weight. -/
def first (a0 a1 : Fin 1024 → EReal) (wa wb : Fin 1024 → Fin 2048 → EReal) (j : Fin 2048) : EReal :=
  ∑ k : Fin 1024, a0 k * wa k j + ∑ k : Fin 1024, a1 k * wb k j

/-- A later edge at column `j`: a row of 2048 entries against a square weight. -/
def next (z : Fin 2048 → EReal) (w : Fin 2048 → Fin 2048 → EReal) (j : Fin 2048) : EReal :=
  ∑ k : Fin 2048, z k * w k j

/-- One output row: the three edges in order. -/
def row (a0 a1 : Fin 1024 → EReal) (wa wb : Fin 1024 → Fin 2048 → EReal) (w1 w2 : Fin 2048 → Fin 2048 → EReal) :
    Fin 2048 → EReal :=
  next (next (first a0 a1 wa wb) w1) w2

/-- The first edge when the two activation rows are joined into one row `z` of 2048 entries and contracted against
    the whole weight `w`: the contraction splits into its two halves. -/
theorem first_of_joined (z : Fin 2048 → EReal) (w : Fin 2048 → Fin 2048 → EReal) (j : Fin 2048) :
    next z w j = first (fun k => z (lo k)) (fun k => z (hi k)) (fun k => w (lo k)) (fun k => w (hi k)) j :=
  sum_halves fun k => z k * w k j

/-- Entry (r, j) of the result as a function of the five argument arrays. -/
def entry (x0 x1 : (⟨2, ![4096, 1024]⟩ : Shape).Idx → EReal) (w0 w1 w2 : (⟨2, ![2048, 2048]⟩ : Shape).Idx → EReal)
    (r : Fin 4096) (j : Fin 2048) : EReal :=
  row (fun k => x0 (ix2 r k)) (fun k => x1 (ix2 r k)) (fun k j => w0 (ix2 (lo k) j)) (fun k j => w0 (ix2 (hi k) j))
    (fun k j => w1 (ix2 k j)) (fun k j => w2 (ix2 k j)) j

/-- The whole result array, index by index. -/
def result (x0 x1 : (⟨2, ![4096, 1024]⟩ : Shape).Idx → EReal) (w0 w1 w2 : (⟨2, ![2048, 2048]⟩ : Shape).Idx → EReal) :
    (⟨2, ![4096, 2048]⟩ : Shape).Idx → EReal :=
  fun i => entry x0 x1 w0 w1 w2 (i 0) (i 1)

end Cert.Chain

end
-- ==== Proof.RefChain.lean ====
/-
  The reference's result array is `Chain.result` of its five arguments.

  The reference joins x0 and x1 side by side into rows of 2048 entries, contracts them against the first weight, and
  after each of its three contractions cuts the result into its left and right column halves and joins the halves
  again. Read at an index, a join of two arrays of 1024 columns takes a column below 1024 from the left array and a
  column 1024 + k from the right array at k; so cutting an array into halves and joining them gives the array back,
  and the three cut-and-join steps drop out. What is left is three contractions over 2048 terms; the first one, over
  a joined row, splits into its two halves (`Chain.first_of_joined`), which is the kernel's way of writing it.
-/
import proofs.«133611_j91190745629219_2_alg».proof.Proof.Gen.ReferenceIdeal.Read
import proofs.«133611_j91190745629219_2_alg».proof.Proof.RowChain
import Idealize.ShloMosaic.Lib.Pipeline.Value
import Idealize.ShloMosaic.Lib.ValueIdx

noncomputable section

open scoped BigOperators

namespace Cert.ReferenceIdeal.RefChain

open Cert.ReferenceIdeal Cert.ReferenceIdeal.Gen Cert.ReferenceIdeal.Read Idealize.ShloMosaic Idealize.ShloMosaic.ValueIdx Cert.Chain

/-! ## Joining two arrays of 1024 columns, read at an index -/

section Layout
variable {α : Type}

/-- A column below 1024 of the joined array is that column of the left array. -/
theorem join_lo (a b : S4096x1024.Idx → α) (h : Shape.Concatenates [S4096x1024, S4096x1024] S4096x2048 1)
    (r : Fin 4096) (k : Fin 1024) :
    concatenate S4096x2048 1 [⟨S4096x1024, a⟩, ⟨S4096x1024, b⟩] h (ix2 r (lo k)) = a (ix2 r k) :=
  concatenate_pair_apply_left (1 : Fin S4096x2048.rank) a b h (ix2 r (lo k)) rfl (ix2 r k)
    (fun d => by match d with | ⟨0, _⟩ => rfl | ⟨1, _⟩ => rfl)

/-- Column 1024 + k of the joined array is column k of the right array. -/
theorem join_hi (a b : S4096x1024.Idx → α) (h : Shape.Concatenates [S4096x1024, S4096x1024] S4096x2048 1)
    (r : Fin 4096) (k : Fin 1024) :
    concatenate S4096x2048 1 [⟨S4096x1024, a⟩, ⟨S4096x1024, b⟩] h (ix2 r (hi k)) = b (ix2 r k) :=
  concatenate_pair_apply_right (1 : Fin S4096x2048.rank) a b h (ix2 r (hi k)) rfl rfl (ix2 r k)
    (fun d hd => by match d with | ⟨0, _⟩ => rfl | ⟨1, _⟩ => exact absurd rfl hd)
    (by show k.val + 1024 = 1024 + k.val; omega)

/-- Cutting an array into its left and right column halves and joining the halves gives the array back. -/
theorem rejoin (y : S4096x2048.Idx → α) (h0 : S4096x2048.Slices ![0, 0] S4096x1024)
    (h1 : S4096x2048.Slices ![0, 1024] S4096x1024) (h : Shape.Concatenates [S4096x1024, S4096x1024] S4096x2048 1) :
    concatenate S4096x2048 1 [⟨S4096x1024, extractStridedSlice S4096x1024 ![0, 0] y h0⟩,
      ⟨S4096x1024, extractStridedSlice S4096x1024 ![0, 1024] y h1⟩] h = y := by
  funext j
  obtain ⟨r, q, rfl⟩ : ∃ (r : Fin 4096) (q : Fin 2048), j = ix2 r q := ⟨j 0, j 1, eq_ix2 j⟩
  by_cases hq : q.val < 1024
  · obtain ⟨k, rfl⟩ : ∃ k : Fin 1024, q = lo k := ⟨⟨q.val, hq⟩, rfl⟩
    rw [join_lo]
    exact extractStridedSlice_apply ![0, 0] y h0 (ix2 r k) (ix2 r (lo k)) (fun a => by
      match a with
      | ⟨0, _⟩ => show r.val = 0 + r.val; omega
      | ⟨1, _⟩ => show k.val = 0 + k.val; omega)
  · obtain ⟨k, rfl⟩ : ∃ k : Fin 1024, q = hi k :=
      ⟨⟨q.val - 1024, by have := q.isLt; omega⟩, Fin.ext (by show q.val = 1024 + (q.val - 1024); omega)⟩
    rw [join_hi]
    exact extractStridedSlice_apply ![0, 1024] y h1 (ix2 r k) (ix2 r (hi k)) (fun a => by
      match a with
      | ⟨0, _⟩ => show r.val = 0 + r.val; omega
      | ⟨1, _⟩ => show 1024 + k.val = 1024 + k.val; rfl)

end Layout

/-! ## The three contractions -/

variable (x0 x1 : (⟨S4096x1024, .f32⟩ : BufTy).Contents (Elt Ideal))
variable (w0 w1 w2 : (⟨S2048x2048, .f32⟩ : BufTy).Contents (Elt Ideal))

/-- The first contraction at (r, q): over the joined row, so it splits into the two halves. -/
theorem stage1 (r : Fin 4096) (q : Fin 2048) :
    val_main_v1 (F := Ideal) x0 x1 w0 (ix2 r q)
      = first (fun k => x0 (ix2 r k)) (fun k => x1 (ix2 r k)) (fun k j => w0 (ix2 (lo k) j)) (fun k j => w0 (ix2 (hi k) j)) q := by
  rw [val_main_v1_apply]
  have el : ∀ k : Fin 2048, lidx_main_v1 (ix2 r q) k = ix2 r k := fun k => funext fun a => by
    match a with | ⟨0, _⟩ => rfl | ⟨1, _⟩ => rfl
  have er : ∀ k : Fin 2048, ridx_main_v1 (ix2 r q) k = ix2 k q := fun k => funext fun a => by
    match a with | ⟨0, _⟩ => rfl | ⟨1, _⟩ => rfl
  simp only [el, er]
  refine (first_of_joined (fun k => val_main_v0 (F := Ideal) x0 x1 (ix2 r k)) (fun k j => w0 (ix2 k j)) q).trans ?_
  unfold val_main_v0
  simp only [join_lo, join_hi]

/-- The second contraction at (r, q): the cut-and-join before it drops out. -/
theorem stage5 (r : Fin 4096) (q : Fin 2048) :
    val_main_v5 (F := Ideal) x0 x1 w0 w1 (ix2 r q)
      = next (fun k => val_main_v1 (F := Ideal) x0 x1 w0 (ix2 r k)) (fun k j => w1 (ix2 k j)) q := by
  rw [val_main_v5_apply]
  have e4 : val_main_v4 (F := Ideal) x0 x1 w0 = val_main_v1 (F := Ideal) x0 x1 w0 := by
    unfold val_main_v4 val_main_v2 val_main_v3; exact rejoin _ _ _ _
  have el : ∀ k : Fin 2048, lidx_main_v5 (ix2 r q) k = ix2 r k := fun k => funext fun a => by
    match a with | ⟨0, _⟩ => rfl | ⟨1, _⟩ => rfl
  have er : ∀ k : Fin 2048, ridx_main_v5 (ix2 r q) k = ix2 k q := fun k => funext fun a => by
    match a with | ⟨0, _⟩ => rfl | ⟨1, _⟩ => rfl
  simp only [e4, el, er]
  rfl

/-- The third contraction at (r, q), likewise. -/
theorem stage9 (r : Fin 4096) (q : Fin 2048) :
    val_main_v9 (F := Ideal) x0 x1 w0 w1 w2 (ix2 r q)
      = next (fun k => val_main_v5 (F := Ideal) x0 x1 w0 w1 (ix2 r k)) (fun k j => w2 (ix2 k j)) q := by
  rw [val_main_v9_apply]
  have e8 : val_main_v8 (F := Ideal) x0 x1 w0 w1 = val_main_v5 (F := Ideal) x0 x1 w0 w1 := by
    unfold val_main_v8 val_main_v6 val_main_v7; exact rejoin _ _ _ _
  have el : ∀ k : Fin 2048, lidx_main_v9 (ix2 r q) k = ix2 r k := fun k => funext fun a => by
    match a with | ⟨0, _⟩ => rfl | ⟨1, _⟩ => rfl
  have er : ∀ k : Fin 2048, ridx_main_v9 (ix2 r q) k = ix2 k q := fun k => funext fun a => by
    match a with | ⟨0, _⟩ => rfl | ⟨1, _⟩ => rfl
  simp only [e8, el, er]
  rfl

/-- The reference's result array, index by index, is `Chain.result` of the five arguments. -/
theorem val_eq_result : val_main_v12 (F := Ideal) x0 x1 w0 w1 w2 = Chain.result x0 x1 w0 w1 w2 := by
  have e12 : val_main_v12 (F := Ideal) x0 x1 w0 w1 w2 = val_main_v9 (F := Ideal) x0 x1 w0 w1 w2 := by
    unfold val_main_v12 val_main_v10 val_main_v11; exact rejoin _ _ _ _
  rw [e12]
  funext j
  obtain ⟨r, q, rfl⟩ : ∃ (r : Fin 4096) (q : Fin 2048), j = ix2 r q := ⟨j 0, j 1, eq_ix2 j⟩
  show _ = Chain.entry x0 x1 w0 w1 w2 r q
  rw [stage9]
  unfold Chain.entry Chain.row
  simp only [stage5, stage1]

end Cert.ReferenceIdeal.RefChain

end
-- ==== Proof.Weights.lean ====
/-
  What the four weight windows' arrays hold when the region is entered.

  Before the call the program cuts the first weight into its upper 1024 rows and its lower 1024 rows and changes the
  format of every weight to bf16. On the extended reals a change of format is the identity, so entry (k, j) of the
  upper piece is entry (k, j) of the first weight, entry (k, j) of the lower piece is its entry (1024 + k, j), and the
  other two weights are unchanged.
-/
import proofs.«133611_j91190745629219_2_alg».proof.Proof.Gen.KernelIdeal.Frame
import proofs.«133611_j91190745629219_2_alg».proof.Proof.RowChain
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Chain

variable (m : (ℓ : Loc nD τ sig) → Buf (Elt Ideal) ℓ)

/-- The upper piece of the first weight: its rows 0 … 1023. -/
theorem upper_apply (c : Dev nD) (k : Fin 1024) (j : Fin 2048) :
    (V m c main_v1 : S1024x2048.Idx → EReal) (ix2 k j)
      = (m ((c : Thread nD τ).loc main_arg2) : S2048x2048.Idx → EReal) (ix2 (lo k) j) := by
  have e : (V m c main_v1 : S1024x2048.Idx → EReal)
      = truncf (F := Ideal) .bf16 (extractStridedSlice S1024x2048 ![0, 0] (m ((c : Thread nD τ).loc main_arg2)) slices_S2048x2048_S1024x2048_0_0) bitsLt_bf16_f32 := by
    dsimp only [Gen.V, Gen.hostOps0]; after_results
  rw [e]
  exact extractStridedSlice_apply ![0, 0] _ slices_S2048x2048_S1024x2048_0_0 (ix2 k j) (ix2 (lo k) j) (fun a => by
    match a with
    | ⟨0, _⟩ => show k.val = 0 + k.val; omega
    | ⟨1, _⟩ => show j.val = 0 + j.val; omega)

/-- The lower piece of the first weight: its rows 1024 … 2047. -/
theorem lower_apply (c : Dev nD) (k : Fin 1024) (j : Fin 2048) :
    (V m c main_v3 : S1024x2048.Idx → EReal) (ix2 k j)
      = (m ((c : Thread nD τ).loc main_arg2) : S2048x2048.Idx → EReal) (ix2 (hi k) j) := by
  have e : (V m c main_v3 : S1024x2048.Idx → EReal)
      = truncf (F := Ideal) .bf16 (extractStridedSlice S1024x2048 ![1024, 0] (m ((c : Thread nD τ).loc main_arg2)) slices_S2048x2048_S1024x2048_1024_0) bitsLt_bf16_f32 := by
    dsimp only [Gen.V, Gen.hostOps0]; after_results
  rw [e]
  exact extractStridedSlice_apply ![1024, 0] _ slices_S2048x2048_S1024x2048_1024_0 (ix2 k j) (ix2 (hi k) j) (fun a => by
    match a with
    | ⟨0, _⟩ => show 1024 + k.val = 1024 + k.val; rfl
    | ⟨1, _⟩ => show j.val = 0 + j.val; omega)

/-- The second weight, its format changed: the same entries. -/
theorem second_eq (c : Dev nD) :
    (V m c main_v4 : S2048x2048.Idx → EReal) = (m ((c : Thread nD τ).loc main_arg3) : S2048x2048.Idx → EReal) := by
  have e : (V m c main_v4 : S2048x2048.Idx → EReal)
      = truncf (F := Ideal) .bf16 (m ((c : Thread nD τ).loc main_arg3)) bitsLt_bf16_f32 := by
    dsimp only [Gen.V, Gen.hostOps0]; after_results
  rw [e]; rfl

/-- The third weight, its format changed: the same entries. -/
theorem third_eq (c : Dev nD) :
    (V m c main_v5 : S2048x2048.Idx → EReal) = (m ((c : Thread nD τ).loc main_arg4) : S2048x2048.Idx → EReal) := by
  have e : (V m c main_v5 : S2048x2048.Idx → EReal)
      = truncf (F := Ideal) .bf16 (m ((c : Thread nD τ).loc main_arg4)) bitsLt_bf16_f32 := by
    dsimp only [Gen.V, Gen.hostOps0]; after_results
  rw [e]; rfl

end Cert.KernelIdeal.Hand

end
-- ==== Proof.BlockRow.lean ====
/-
  What the kernel body stores, read at an index.

  On a block of 256 rows the body forms (x0 block) · (upper piece) + (x1 block) · (lower piece), multiplies the result
  by the second weight and that by the third, each product accumulated from zero. On the extended reals a product
  accumulated from zero is the plain sum of products over the contracted axis, and a change of format or a cast of a
  shape onto itself changes nothing, so entry (p, q) of what is stored is `Chain.row` of row p of the two activation
  blocks and of the four weight blocks, at column q.
-/
import proofs.«133611_j91190745629219_2_alg».proof.Proof.Gen.KernelIdeal.Skeleton
import proofs.«133611_j91190745629219_2_alg».proof.Proof.RowChain
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Chain

/-- The left operand's row coordinate at a contracted position is the output's row. -/
theorem narrow_lhs_row (i : S256x2048.Idx) (s : dot_S256x1024_S1024x2048_S256x2048_1_0_0_1_n_n.contr.Idx) : (dot_S256x1024_S1024x2048_S256x2048_1_0_0_1_n_n.lhsIdx i s 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
/-- The right operand's column coordinate at a contracted position is the output's column. -/
theorem narrow_rhs_col (i : S256x2048.Idx) (s : dot_S256x1024_S1024x2048_S256x2048_1_0_0_1_n_n.contr.Idx) : (dot_S256x1024_S1024x2048_S256x2048_1_0_0_1_n_n.rhsIdx i s 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl
/-- A block of 256 rows of 1024 entries against a 1024 × 2048 weight, accumulated from zero: entry (p, q) is the sum over the 1024 contracted positions of the products. -/
theorem mm_narrow (l : FVec Ideal S256x1024 .bf16) (r : FVec Ideal S1024x2048 .bf16) (p : Fin 256) (q : Fin 2048) :
    matmul dot_S256x1024_S1024x2048_S256x2048_1_0_0_1_n_n none l r (constant (F := Ideal) S256x2048 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k := funext fun a => Fin.ext (by
    match a with
    | ⟨0, _⟩ => exact narrow_lhs_row _ _
    | ⟨1, _⟩ => exact (dot_S256x1024_S1024x2048_S256x2048_1_0_0_1_n_n.lhsIdx_val_of_single rfl _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q := funext fun a => Fin.ext (by
    match a with
    | ⟨0, _⟩ => exact (dot_S256x1024_S1024x2048_S256x2048_1_0_0_1_n_n.rhsIdx_val_of_single rfl _ _).trans hk
    | ⟨1, _⟩ => exact narrow_rhs_col _ _)
  rw [el, er]

/-- The left operand's row coordinate at a contracted position is the output's row. -/
theorem wide_lhs_row (i : S256x2048.Idx) (s : dot_S256x2048_S2048x2048_S256x2048_1_0_0_1_n_n.contr.Idx) : (dot_S256x2048_S2048x2048_S256x2048_1_0_0_1_n_n.lhsIdx i s 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- The right operand's column coordinate at a contracted position is the output's column. -/
theorem wide_rhs_col (i : S256x2048.Idx) (s : dot_S256x2048_S2048x2048_S256x2048_1_0_0_1_n_n.contr.Idx) : (dot_S256x2048_S2048x2048_S256x2048_1_0_0_1_n_n.rhsIdx i s 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl
/-- A block of 256 rows of 2048 entries against a 2048 × 2048 weight, accumulated from zero: entry (p, q) is the sum over the 2048 contracted positions of the products. -/
theorem mm_wide (l : FVec Ideal S256x2048 .bf16) (r : FVec Ideal S2048x2048 .bf16) (p : Fin 256) (q : Fin 2048) :
    matmul dot_S256x2048_S2048x2048_S256x2048_1_0_0_1_n_n none l r (constant (F := Ideal) S256x2048 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact wide_lhs_row _ _
    | ⟨1, _⟩ => exact (dot_S256x2048_S2048x2048_S256x2048_1_0_0_1_n_n.lhsIdx_val_of_single rfl _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (dot_S256x2048_S2048x2048_S256x2048_1_0_0_1_n_n.rhsIdx_val_of_single rfl _ _).trans hk
    | ⟨1, _⟩ => exact wide_rhs_col _ _)
  rw [el, er]

/-- Entry (p, q) of the stored block is one output row's chain of the three edges, over row p of the two activation
    blocks. -/
theorem pay_at (x0 x1 : FVec Ideal S256x1024 .f32) (wa wb : FVec Ideal S1024x2048 .bf16) (w1 w2 : FVec Ideal S2048x2048 .bf16)
    (p : Fin 256) (q : Fin 2048) :
    k0_pay1 (F := Ideal) x0 x1 wa wb w1 w2 (ix2 p q)
      = Chain.row (fun k => x0 (ix2 p k)) (fun k => x1 (ix2 p k)) (fun k j => wa (ix2 k j)) (fun k j => wb (ix2 k j))
          (fun k j => w1 (ix2 k j)) (fun k j => w2 (ix2 k j)) q := by
  unfold k0_pay1 Chain.row Chain.next Chain.first
  simp only [mm_wide, mm_narrow, truncf_apply, addf_apply, shapeCast_self]

end Cert.KernelIdeal.Hand

end
-- ==== Proof.Blocks.lean ====
/-
  From the 16 blocks to the whole result array.

  Grid point t works on rows 256 t … 256 t + 255. Its two activation blocks are those rows of x0 and x1; each weight
  window is one block, the whole piece, at every point. So entry (p, q) of what point t writes back is `Chain.row` of
  row 256 t + p of x0 and x1 and of the weights, at column q: it is entry (256 t + p, q) of `Chain.result`. Row r of
  the result lies in the block of point r / 256, so the 16 blocks cover the array, and after the run the result array
  is `Chain.result` of the five arguments.
-/
import proofs.«133611_j91190745629219_2_alg».proof.Proof.Gen.KernelIdeal.Value
import proofs.«133611_j91190745629219_2_alg».proof.Proof.RowChain
import proofs.«133611_j91190745629219_2_alg».proof.Proof.Weights
import proofs.«133611_j91190745629219_2_alg».proof.Proof.BlockRow
import Idealize.ShloMosaic.Lib.Pipeline.Value
import Idealize.ShloMosaic.Lib.ValueIdx

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx Cert.Chain
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at point `t`, decided over the 16 points: the activation windows and the output
    window are at block row `t`, block column 0; every weight window is at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks at a point, read at an index -/

/-- Entry (p, k) of x0's block at point `t` is entry (256 t + p, k) of x0. -/
theorem act0_apply (c : Dev nD) (t : Fin cfg0.N) (p : Fin 256) (k : Fin 1024) (R : Fin 4096) (hR : R.val = t.val * 256 + p.val) :
    (iblk m c 0 t : S256x1024.Idx → EReal) (ix2 p k) = (m ((c : Thread nD τ).loc main_arg0) : S4096x1024.Idx → EReal) (ix2 R k) := by
  obtain ⟨e0, e1, -⟩ := idx_facts t
  unfold iblk
  rw [View.read_apply]
  show (V m c main_arg0 : S4096x1024.Idx → EReal) _ = _
  rw [V_main_arg0]
  congr 1
  funext a
  apply Fin.ext
  match a with
  | ⟨0, _⟩ => show win0_0.index t (0 : Fin 2) * 256 + 1 * p.val = R.val; rw [e0, hR]; omega
  | ⟨1, _⟩ => show win0_0.index t (1 : Fin 2) * 1024 + 1 * k.val = k.val; rw [e1]; omega

/-- Entry (p, k) of x1's block at point `t` is entry (256 t + p, k) of x1. -/
theorem act1_apply (c : Dev nD) (t : Fin cfg0.N) (p : Fin 256) (k : Fin 1024) (R : Fin 4096) (hR : R.val = t.val * 256 + p.val) :
    (iblk m c 1 t : S256x1024.Idx → EReal) (ix2 p k) = (m ((c : Thread nD τ).loc main_arg1) : S4096x1024.Idx → EReal) (ix2 R k) := by
  obtain ⟨-, -, e0, e1, -⟩ := idx_facts t
  unfold iblk
  rw [View.read_apply]
  show (V m c main_arg1 : S4096x1024.Idx → EReal) _ = _
  rw [V_main_arg1]
  congr 1
  funext a
  apply Fin.ext
  match a with
  | ⟨0, _⟩ => show win0_1.index t (0 : Fin 2) * 256 + 1 * p.val = R.val; rw [e0, hR]; omega
  | ⟨1, _⟩ => show win0_1.index t (1 : Fin 2) * 1024 + 1 * k.val = k.val; rw [e1]; omega

/-- The upper-piece window's one block is the piece: rows 0 … 1023 of the first weight. -/
theorem upper_blk (c : Dev nD) (t : Fin cfg0.N) (k : Fin 1024) (j : Fin 2048) :
    (iblk m c 2 t : S1024x2048.Idx → EReal) (ix2 k j) = (m ((c : Thread nD τ).loc main_arg2) : S2048x2048.Idx → EReal) (ix2 (lo k) j) := by
  obtain ⟨-, -, -, -, e0, e1, -⟩ := idx_facts t
  unfold iblk
  rw [View.read_apply]
  show (V m c main_v1 : S1024x2048.Idx → EReal) _ = _
  refine Eq.trans (congrArg (V m c main_v1 : S1024x2048.Idx → EReal) ?_) (upper_apply m c k j)
  funext a
  apply Fin.ext
  match a with
  | ⟨0, _⟩ => show win0_2.index t (0 : Fin 2) * 1024 + 1 * k.val = k.val; rw [e0]; omega
  | ⟨1, _⟩ => show win0_2.index t (1 : Fin 2) * 2048 + 1 * j.val = j.val; rw [e1]; omega

/-- The lower-piece window's one block is the piece: rows 1024 … 2047 of the first weight. -/
theorem lower_blk (c : Dev nD) (t : Fin cfg0.N) (k : Fin 1024) (j : Fin 2048) :
    (iblk m c 3 t : S1024x2048.Idx → EReal) (ix2 k j) = (m ((c : Thread nD τ).loc main_arg2) : S2048x2048.Idx → EReal) (ix2 (hi k) j) := by
  obtain ⟨-, -, -, -, -, -, e0, e1, -⟩ := idx_facts t
  unfold iblk
  rw [View.read_apply]
  show (V m c main_v3 : S1024x2048.Idx → EReal) _ = _
  refine Eq.trans (congrArg (V m c main_v3 : S1024x2048.Idx → EReal) ?_) (lower_apply m c k j)
  funext a
  apply Fin.ext
  match a with
  | ⟨0, _⟩ => show win0_3.index t (0 : Fin 2) * 1024 + 1 * k.val = k.val; rw [e0]; omega
  | ⟨1, _⟩ => show win0_3.index t (1 : Fin 2) * 2048 + 1 * j.val = j.val; rw [e1]; omega

/-- The second weight's window holds the second weight. -/
theorem second_blk (c : Dev nD) (t : Fin cfg0.N) (k j : Fin 2048) :
    (iblk m c 4 t : S2048x2048.Idx → EReal) (ix2 k j) = (m ((c : Thread nD τ).loc main_arg3) : S2048x2048.Idx → EReal) (ix2 k j) := by
  obtain ⟨-, -, -, -, -, -, -, -, e0, e1, -⟩ := idx_facts t
  unfold iblk
  rw [View.read_apply]
  show (V m c main_v4 : S2048x2048.Idx → EReal) _ = _
  rw [second_eq]
  congr 1
  funext a
  apply Fin.ext
  match a with
  | ⟨0, _⟩ => show win0_4.index t (0 : Fin 2) * 2048 + 1 * k.val = k.val; rw [e0]; omega
  | ⟨1, _⟩ => show win0_4.index t (1 : Fin 2) * 2048 + 1 * j.val = j.val; rw [e1]; omega

/-- The third weight's window holds the third weight. -/
theorem third_blk (c : Dev nD) (t : Fin cfg0.N) (k j : Fin 2048) :
    (iblk m c 5 t : S2048x2048.Idx → EReal) (ix2 k j) = (m ((c : Thread nD τ).loc main_arg4) : S2048x2048.Idx → EReal) (ix2 k j) := by
  obtain ⟨-, -, -, -, -, -, -, -, -, -, e0, e1, -⟩ := idx_facts t
  unfold iblk
  rw [View.read_apply]
  show (V m c main_v5 : S2048x2048.Idx → EReal) _ = _
  rw [third_eq]
  congr 1
  funext a
  apply Fin.ext
  match a with
  | ⟨0, _⟩ => show win0_5.index t (0 : Fin 2) * 2048 + 1 * k.val = k.val; rw [e0]; omega
  | ⟨1, _⟩ => show win0_5.index t (1 : Fin 2) * 2048 + 1 * j.val = j.val; rw [e1]; omega

/-! ## What a point writes back -/

/-- What point `t` writes back is block `t` of `Chain.result` of the arguments. -/
theorem flushed_eq (c : Dev nD) (t : Fin cfg0.N) :
    (dats m 0 c).flushed 6 t = ((cfg0.win 6).blk t).view.read (Elt Ideal)
      (Chain.result (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6]
  unfold Gen.out0_6
  rw [View.canon_unit_zero hz]
  simp only [View.ld_unit_zero (S := S256x1024) hz, View.ld_unit_zero (S := S1024x2048) hz, View.ld_unit_zero (S := S2048x2048) hz]
  obtain ⟨-, -, -, -, -, -, -, -, -, -, -, -, e0, e1⟩ := idx_facts t
  refine funext fun (y : S256x2048.Idx) => ?_
  obtain ⟨p, q, rfl⟩ : ∃ (p : Fin 256) (q : Fin 2048), y = ix2 p q := ⟨y 0, y 1, eq_ix2 y⟩
  rw [View.read_apply]
  show k0_pay1 (F := Ideal) (iblk m c 0 t) (iblk m c 1 t) (iblk m c 2 t) (iblk m c 3 t) (iblk m c 4 t) (iblk m c 5 t) (ix2 p q) = _
  refine (pay_at (iblk m c 0 t) (iblk m c 1 t) (iblk m c 2 t) (iblk m c 3 t) (iblk m c 4 t) (iblk m c 5 t) p q).trans ?_
  have hp : p.val < 256 := p.isLt
  have ht : t.val < 16 := lt_of_lt_of_eq t.isLt (show cfg0.N = 16 from N_0)
  obtain ⟨R, hR⟩ : ∃ R : Fin 4096, R.val = t.val * 256 + p.val := ⟨⟨t.val * 256 + p.val, by omega⟩, rfl⟩
  have hi : ((cfg0.win 6).blk t).view.emb (ix2 p q) = (ix2 R q : S4096x2048.Idx) := by
    funext a
    apply Fin.ext
    match a with
    | ⟨0, _⟩ => show win0_6.index t (0 : Fin 2) * 256 + 1 * p.val = R.val; rw [e0, hR]; omega
    | ⟨1, _⟩ => show win0_6.index t (1 : Fin 2) * 2048 + 1 * q.val = q.val; rw [e1]; omega
  rw [hi]
  show _ = Chain.entry _ _ _ _ _ R q
  unfold Chain.entry
  simp only [act0_apply m c t _ _ R hR, act1_apply m c t _ _ R hR, upper_blk, lower_blk, second_blk, third_blk]

/-! ## The cover and the whole array -/

/-- An index is in point `t`'s output block iff each coordinate is in the block's range on its axis. -/
theorem mem_blk (t : Fin cfg0.N) (i : S4096x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v6).slice (win0_6.rect t)).set ↔ _
  rw [View.set_slice_whole, Rect.mem_set_unit]
  exact Iff.rfl

/-- Every index of the result array is in the block of the point that holds its row: row r in point r / 256. -/
theorem cover (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  obtain ⟨t, ht⟩ : ∃ t : Fin cfg0.N, t.val = (i 0).val / 256 :=
    ⟨⟨(i 0).val / 256, by show (i 0).val / 256 < grid0.N; rw [N_0]; omega⟩, rfl⟩
  refine ⟨t, flush0_6 t, ?_⟩
  rw [mem_blk]
  obtain ⟨-, -, -, -, -, -, -, -, -, -, -, -, e0, e1⟩ := idx_facts t
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 2048 ≤ (i 1).val ∧ (i 1).val < win0_6.index t (1 : Fin 2) * 2048 + 2048
    rw [e1]; omega

/-- After the run the result array is `Chain.result` of the five arguments. -/
theorem final (c : Dev nD) : (dats m 0 c).arrAt 6 cfg0.N
    = Chain.result (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed_eq m c t) cover

/-- The kernel's run, read: the result array at `Chain.result` of the arguments, the arguments unchanged. -/
theorem run : θ_run defs (onTc (τ := τ) (main (F := Ideal))) ⟨m, fun _ => 0, ρ⟩ fun r => ∀ c : Dev nD,
      r.2.mem ((c : Thread nD τ).loc main_v6) = Chain.result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.lean ====
/-
  Three chained matrix products: a tiled kernel against its reference, equal on the extended reals.

  The arguments are two activation arrays x0, x1 of 4096 × 1024 entries and three weights W0, W1, W2 of 2048 × 2048.
  The reference joins x0 and x1 side by side into rows of 2048 entries and multiplies by W0, W1, W2 in turn, cutting
  each product into its left and right halves and joining them again before the next. The kernel works on 16 blocks of
  256 rows: it multiplies the x0 block by the upper 1024 rows of W0 and the x1 block by the lower 1024 rows, adds the
  two, and multiplies by W1 and then by W2.

  Entry (r, j) of either result depends on row r of x0 and x1 only, and both are `Chain.row` of that row
  (Proof/RowChain.lean): the cut-and-join steps give back the array they cut, and a contraction of a joined row of
  2048 entries is the sum of the contractions of its two halves — the one law used, true in every additive
  commutative monoid, so no finiteness of the inputs is needed and the precondition is never opened. Changes of float
  format are the identity on the extended reals, and a product accumulated from zero is the plain sum of products.

  Proof/RefChain.lean reads the reference's run as `Chain.result`; Proof/BlockRow.lean, Proof/Weights.lean and
  Proof/Blocks.lean read the kernel's: what the body stores at an index, what the weight windows hold, and the 16
  blocks put together. The frames of the two kernels are the generated ones; the reference's frame is its run with the
  result dropped; the idealization rewrote nothing, so there is nothing to preserve.
-/
import proofs.«133611_j91190745629219_2_alg».proof.Defs
import proofs.«133611_j91190745629219_2_alg».proof.Proof.Gen.Kernel
import proofs.«133611_j91190745629219_2_alg».proof.Proof.Gen.Kernel.Frame
import proofs.«133611_j91190745629219_2_alg».proof.Proof.Gen.KernelIdeal
import proofs.«133611_j91190745629219_2_alg».proof.Proof.Gen.KernelIdeal.Frame
import proofs.«133611_j91190745629219_2_alg».proof.Proof.Gen.KernelIdeal.Value
import proofs.«133611_j91190745629219_2_alg».proof.Proof.Gen.ReferenceIdeal
import proofs.«133611_j91190745629219_2_alg».proof.Proof.Gen.ReferenceIdeal.Run
import proofs.«133611_j91190745629219_2_alg».proof.Proof.Gen.ReferenceIdeal.Read
import proofs.«133611_j91190745629219_2_alg».proof.Proof.Gen.Pre_finite_inputs
import proofs.«133611_j91190745629219_2_alg».proof.Proof.RowChain
import proofs.«133611_j91190745629219_2_alg».proof.Proof.RefChain
import proofs.«133611_j91190745629219_2_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at `Chain.result` of the
    arguments: the kernel block by block, the reference through its three contractions. -/
theorem algebraic : Cert.algebraic_KernelIdeal_ReferenceIdeal := by
  intro m ρ m' ρ' _ hagree
  refine ⟨fun c => Cert.Chain.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefChain.val_eq_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
